-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S1x128 : Shape := ⟨2, ![1, 128]⟩
abbrev S2000x1 : Shape := ⟨2, ![2000, 1]⟩
abbrev S1x1 : Shape := ⟨2, ![1, 1]⟩

abbrev nBuf : Space → Nat
  | .hbm => 58
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x1, .f32⟩
  | .hbm, ⟨57, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x1, .f32⟩
  | .local _ .vmem, ⟨21, _⟩ => ⟨S1, .f32⟩
  | .local _ .vmem, ⟨22, _⟩ => ⟨S2000x1, .f32⟩
  | .local _ .vmem, ⟨23, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1.size a ≤ S1.size a
  hwx2_2 : ∀ i : grid2.Coords, EltTy.bits .f32 = 32 ∨ (Rect.block (s := S1) S1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S2000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩
abbrev S50000 : Shape := ⟨1, ![50000]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S50000x1, .f32⟩
  | .hbm, ⟨31, _⟩ => ⟨S800000x1, .i32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x1, .f32⟩
  | .hbm, ⟨81, _⟩ => ⟨S1x1, .f32⟩
  | .hbm, ⟨82, _⟩ => ⟨S50000x1, .f32⟩
  | .hbm, ⟨83, _⟩ => ⟨S50000x1, .f32⟩
  | .hbm, ⟨84, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run with its two results named.

  The program is six segments: the host operations that build the first neighbour mean, the first layer's
  pipelined region, the host operations that build the second mean from the first layer's output, the second
  layer's region, the last product's region, and one reshape. The contents of every buffer at each segment
  boundary are a fold from the launch memory (`W0` … `W6` of the frame module); every weakly fair execution
  ends, without a fault, with every unscoped buffer at the last boundary's contents `W6`. Read at the two result
  buffers and at the ten arguments this gives the post below; what `W6` holds at the results is opened in
  KernelValue.lean.
-/
import proofs.«164059_j49606872269111_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_results : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Payload.lean ====
/-
  What each kernel body stores, read at one entry, over the extended reals.

  A layer's body loads a 2000-row block of the neighbour mean, the same rows of the node features, the two
  128×128 weight matrices and the bias row, rounds the four matrices to bf16 (the identity on the extended
  reals), multiplies into zero accumulators, adds the two products, adds the bias row spread over the rows,
  and takes the maximum with zero. So entry (p, q) of what it stores is

      max ((Σₖ mean(p,k)·Wl(k,q) + Σₖ h(p,k)·Wr(k,q)) + b(q), 0).

  The last body multiplies a 2000-row block by the 128×1 column and adds the scalar: entry (p, q), q = 0, is
  Σₖ h(p,k)·Wlin(k,q) + blin(0).
-/
import proofs.«164059_j49606872269111_1_alg».proof.Proof.Gen.KernelIdeal.Skeleton
import proofs.«164059_j49606872269111_1_alg».proof.Proof.LibDot
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen

/-- The layers' product contracts axis 1 of a 2000×128 block with axis 0 of a 128×128 matrix. -/
theorem plainLayer : Cert.LibDot.Plain (M := 2000) (K := 128) (N := 128) dot_S2000x128_S128x128_S2000x128_1_0_0_1_n_n where
  hrank := rfl
  hs := rfl
  hl0 := fun _ _ => rfl
  hl1 := fun j k => dot_S2000x128_S128x128_S2000x128_1_0_0_1_n_n.lhsIdx_val_of_single rfl j k
  hr0 := fun j k => dot_S2000x128_S128x128_S2000x128_1_0_0_1_n_n.rhsIdx_val_of_single rfl j k
  hr1 := fun _ _ => rfl

/-- The last product contracts axis 1 of a 2000×128 block with axis 0 of the 128×1 column. -/
theorem plainHead : Cert.LibDot.Plain (M := 2000) (K := 128) (N := 1) dot_S2000x128_S128x1_S2000x1_1_0_0_1_n_n where
  hrank := rfl
  hs := rfl
  hl0 := fun _ _ => rfl
  hl1 := fun j k => dot_S2000x128_S128x1_S2000x1_1_0_0_1_n_n.lhsIdx_val_of_single rfl j k
  hr0 := fun j k => dot_S2000x128_S128x1_S2000x1_1_0_0_1_n_n.rhsIdx_val_of_single rfl j k
  hr1 := fun _ _ => rfl

/-- The bias row spread over the block's rows reads the bias at the column. -/
theorem biasRow (x4 : Vec Ideal S128 .f32) (p : Fin 2000) (q : Fin 128) :
    broadcastTo S2000x128 (shapeCast S1x128 x4 shapeCasts_S128_S1x128) broadcasts_S1x128_S2000x128 (ix2 p q) = x4 (ix1 q) :=
  (broadcastTo_1b_ab_apply _ _ p q).trans (shapeCast_a_1a_apply x4 _ 0 q)

/-- The first layer's stored block at entry (p, q). -/
theorem layer0_apply (x0 x1 : Vec Ideal S2000x128 .f32) (x2 x3 : Vec Ideal S128x128 .f32) (x4 : Vec Ideal S128 .f32)
    (p : Fin 2000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix1 q))
          (Ideal.ofBits .f32 0x00000000#32) := by
  refine (show k0_pay1 (F := Ideal) x0 x1 x2 x3 x4 (ix2 p q)
      = max ((matmul (F := Ideal) dot_S2000x128_S128x128_S2000x128_1_0_0_1_n_n none
                (truncf (F := Ideal) .bf16 (shapeCast S2000x128 x0 shapeCasts_S2000x128_S2000x128) bitsLt_bf16_f32)
                (truncf (F := Ideal) .bf16 x2 bitsLt_bf16_f32) (constant (F := Ideal) S2000x128 .f32 0x00000000#32) (ix2 p q)
              + matmul (F := Ideal) dot_S2000x128_S128x128_S2000x128_1_0_0_1_n_n none (truncf (F := Ideal) .bf16 x1 bitsLt_bf16_f32)
                (truncf (F := Ideal) .bf16 x3 bitsLt_bf16_f32) (constant (F := Ideal) S2000x128 .f32 0x00000000#32) (ix2 p q))
            + broadcastTo S2000x128 (shapeCast S1x128 x4 shapeCasts_S128_S1x128) broadcasts_S1x128_S2000x128 (ix2 p q))
          (Ideal.ofBits .f32 0x00000000#32) from rfl).trans ?_
  rw [shapeCast_self, Cert.LibDot.matmul_ix2 plainLayer, Cert.LibDot.matmul_ix2 plainLayer, biasRow]
  rfl

/-- The second layer's stored block at entry (p, q). -/
theorem layer1_apply (x0 x1 : Vec Ideal S2000x128 .f32) (x2 x3 : Vec Ideal S128x128 .f32) (x4 : Vec Ideal S128 .f32)
    (p : Fin 2000) (q : Fin 128) :
    k1_pay1 (F := Ideal) x0 x1 x2 x3 x4 (ix2 p q)
      = max ((∑ k : Fin 128, x0 (ix2 p k) * x2 (ix2 k q) + ∑ k : Fin 128, x1 (ix2 p k) * x3 (ix2 k q)) + x4 (ix1 q))
          (Ideal.ofBits .f32 0x00000000#32) := by
  refine (show k1_pay1 (F := Ideal) x0 x1 x2 x3 x4 (ix2 p q)
      = max ((matmul (F := Ideal) dot_S2000x128_S128x128_S2000x128_1_0_0_1_n_n none
                (truncf (F := Ideal) .bf16 (shapeCast S2000x128 x0 shapeCasts_S2000x128_S2000x128) bitsLt_bf16_f32)
                (truncf (F := Ideal) .bf16 x2 bitsLt_bf16_f32) (constant (F := Ideal) S2000x128 .f32 0x00000000#32) (ix2 p q)
              + matmul (F := Ideal) dot_S2000x128_S128x128_S2000x128_1_0_0_1_n_n none
                (truncf (F := Ideal) .bf16 (shapeCast S2000x128 x1 shapeCasts_S2000x128_S2000x128) bitsLt_bf16_f32)
                (truncf (F := Ideal) .bf16 x3 bitsLt_bf16_f32) (constant (F := Ideal) S2000x128 .f32 0x00000000#32) (ix2 p q))
            + broadcastTo S2000x128 (shapeCast S1x128 x4 shapeCasts_S128_S1x128) broadcasts_S1x128_S2000x128 (ix2 p q))
          (Ideal.ofBits .f32 0x00000000#32) from rfl).trans ?_
  rw [shapeCast_self, shapeCast_self, Cert.LibDot.matmul_ix2 plainLayer, Cert.LibDot.matmul_ix2 plainLayer, biasRow]
  rfl

/-- The scalar spread over the block's rows reads the scalar. -/
theorem biasScalar (x2 : Vec Ideal S1 .f32) (p : Fin 2000) (q : Fin 1) :
    broadcastTo S2000x1 (shapeCast S1x1 x2 shapeCasts_S1_S1x1) broadcasts_S1x1_S2000x1 (ix2 p q) = x2 (ix1 0) := by
  refine (broadcastTo_1b_ab_apply _ _ p q).trans ((shapeCast_a_1a_apply x2 _ 0 q).trans (congrArg x2 ?_))
  funext a
  match a with
  | ⟨0, _⟩ => exact Fin.ext (by have := q.isLt; show q.val = 0; omega)

/-- The last body's stored block at entry (p, q). -/
theorem head_apply (x0 : Vec Ideal S2000x128 .f32) (x1 : Vec Ideal S128x1 .f32) (x2 : Vec Ideal S1 .f32)
    (p : Fin 2000) (q : Fin 1) :
    k2_pay1 (F := Ideal) x0 x1 x2 (ix2 p q) = ∑ k : Fin 128, x0 (ix2 p k) * x1 (ix2 k q) + x2 (ix1 0) := by
  refine (show k2_pay1 (F := Ideal) x0 x1 x2 (ix2 p q)
      = matmul (F := Ideal) dot_S2000x128_S128x1_S2000x1_1_0_0_1_n_n none
            (truncf (F := Ideal) .bf16 (shapeCast S2000x128 x0 shapeCasts_S2000x128_S2000x128) bitsLt_bf16_f32)
            (truncf (F := Ideal) .bf16 x1 bitsLt_bf16_f32) (constant (F := Ideal) S2000x1 .f32 0x00000000#32) (ix2 p q)
          + broadcastTo S2000x1 (shapeCast S1x1 x2 shapeCasts_S1_S1x1) broadcasts_S1x1_S2000x1 (ix2 p q) from rfl).trans ?_
  rw [shapeCast_self, Cert.LibDot.matmul_ix2 plainHead, biasScalar]
  rfl

end Cert.KernelIdeal.Payload

end
-- ==== Proof.Spec.lean ====
/-
  The mathematics both programs compute, stated once over the extended reals.

  A graph has 50000 nodes with 128 features each and 800000 directed edges (row 0 of the edge table holds the
  source node of an edge, row 1 its destination). One layer sends every node the MEAN of its in-neighbours'
  feature rows — the sum over the edges that end at the node of the source's row, divided by the larger of the
  node's in-degree and 1 — and maps it through

      max (mean · Wl + h · Wr + b, 0)            (two 128×128 products, a bias row, a rectifier),

  and after two layers a last product with a 128×1 column plus a scalar gives one number per node.

  The edge bookkeeping (normalising a negative source index, gathering the source rows, scatter-adding them at
  the destinations) is spelt by the SAME host operations in both programs, so it is kept here as one opaque
  composite `aggr`; only the in-degree is spelt differently — a rank-one scatter of ones then a column view
  (`degVec`), or a scatter of a column of ones (`degCol`) — and Degree.lean shows the two agree.
-/
import Mathlib
import Idealize.ShloMosaic.PureOps.Ideal
import Idealize.ShloMosaic.Lib.ValueIdx

noncomputable section

namespace Cert.Sage

open Idealize.ShloMosaic Idealize.ShloMosaic.ValueIdx

/-! ## Shapes -/

abbrev SNodes : Shape := ⟨2, ![50000, 128]⟩
abbrev SEdges2 : Shape := ⟨2, ![2, 800000]⟩
abbrev SEdgeRow : Shape := ⟨2, ![1, 800000]⟩
abbrev SEdge : Shape := ⟨1, ![800000]⟩
abbrev SEdgeCol : Shape := ⟨2, ![800000, 1]⟩
abbrev SMsgs : Shape := ⟨2, ![800000, 128]⟩
abbrev SScalar : Shape := ⟨0, ![]⟩
abbrev SDeg : Shape := ⟨1, ![50000]⟩
abbrev SDegCol : Shape := ⟨2, ![50000, 1]⟩
abbrev SW : Shape := ⟨2, ![128, 128]⟩
abbrev SB : Shape := ⟨1, ![128]⟩
abbrev SWlin : Shape := ⟨2, ![128, 1]⟩
abbrev SBlin : Shape := ⟨1, ![1]⟩

/-! ## Dimension numbers of the edge operations -/

/-- Gather whole feature rows: one row of 128 per edge, the row number read off the index column. -/
def gatherRows : GatherDims SNodes SEdgeCol SMsgs where
  offsetDims := [1]
  collapsedSliceDims := [0]
  operandBatchingDims := []
  startIndicesBatchingDims := []
  startIndexMap := [0]
  indexVectorDim := 1
  sliceSizes := ![1, 128]
  wf := by decide

/-- Add each edge's row of 128 into the row its index names. -/
def scatterRows : ScatterDims SNodes SEdgeCol SMsgs where
  updateWindowDims := [1]
  insertedWindowDims := [0]
  scatterDimsToOperandDims := [0]
  indexVectorDim := 1
  wf := by decide

/-- Add each edge's single number into the entry its index names (a rank-one target). -/
def scatterVec : ScatterDims SDeg SEdgeCol SEdge where
  updateWindowDims := []
  insertedWindowDims := [0]
  scatterDimsToOperandDims := [0]
  indexVectorDim := 1
  wf := by decide

/-- Add each edge's row of ONE number into the row its index names (a one-column target). -/
def scatterCol : ScatterDims SDegCol SEdgeCol SEdgeCol where
  updateWindowDims := [1]
  insertedWindowDims := [0]
  scatterDimsToOperandDims := [0]
  indexVectorDim := 1
  wf := by decide

/-! ## The edge bookkeeping, as the host operations spell it -/

/-- Row `r` of the edge table as a vector over the edges. -/
def edgeRow (r : Nat) (h : SEdges2.Slices ![r, 0] SEdgeRow) (ei : IVec SEdges2 32) : IVec SEdge 32 :=
  shapeCast SEdge (extractStridedSlice SEdgeRow ![r, 0] ei h) (by decide)

/-- The source node of every edge, a negative number counted from the end (+ 50000), as an index column. -/
def srcIdx (src : IVec SEdge 32) : IVec SEdgeCol 32 :=
  broadcastInDim SEdgeCol ![0] (by decide)
    (select (cmpi .slt src (broadcastInDim SEdge ![] (by decide) (constantI SScalar 32 0#32)))
      (addi src (broadcastInDim SEdge ![] (by decide) (constantI SScalar 32 50000#32))) src)

/-- The destination node of every edge, as an index column. -/
def dstIdx (dst : IVec SEdge 32) : IVec SEdgeCol 32 :=
  broadcastInDim SEdgeCol ![0] (by decide) dst

/-- Per node, the sum of the feature rows of the sources of the edges that end there. -/
def aggr (h : FVec Ideal SNodes .f32) (src dst : IVec SEdge 32) : FVec Ideal SNodes .f32 :=
  Host.scatterAdd scatterRows (broadcastInDim SNodes ![] (by decide) (constant (F := Ideal) SScalar .f32 0x00000000#32))
    (dstIdx dst) (Host.gather gatherRows h (srcIdx src))

/-- The in-degree (at least 1) of every node as a column: counted by a rank-one scatter of ones. -/
def degVec (dst : IVec SEdge 32) : FVec Ideal SDegCol .f32 :=
  broadcastInDim SDegCol ![0] (by decide)
    (maximumf
      (Host.scatterAdd scatterVec (broadcastInDim SDeg ![] (by decide) (constant (F := Ideal) SScalar .f32 0x00000000#32))
        (dstIdx dst) (broadcastInDim SEdge ![] (by decide) (constant (F := Ideal) SScalar .f32 0x3F800000#32)))
      (broadcastInDim SDeg ![] (by decide) (constant (F := Ideal) SScalar .f32 0x3F800000#32)))

/-- The same, counted by a scatter of a column of ones. -/
def degCol (dst : IVec SEdge 32) : FVec Ideal SDegCol .f32 :=
  maximumf
    (Host.scatterAdd scatterCol (broadcastInDim SDegCol ![] (by decide) (constant (F := Ideal) SScalar .f32 0x00000000#32))
      (dstIdx dst) (broadcastInDim SEdgeCol ![] (by decide) (constant (F := Ideal) SScalar .f32 0x3F800000#32)))
    (broadcastInDim SDegCol ![] (by decide) (constant (F := Ideal) SScalar .f32 0x3F800000#32))

/-- The neighbour mean from the two edge rows and a degree column: the aggregated rows divided, column by column,
    by the degree. -/
def meanOf (h : FVec Ideal SNodes .f32) (src dst : IVec SEdge 32) (deg : FVec Ideal SDegCol .f32) : FVec Ideal SNodes .f32 :=
  Host.divf (aggr h src dst) (broadcastInDim SNodes ![0, 1] (by decide) deg)

/-- The neighbour mean, the degree counted the first way. -/
def meanVec (h : FVec Ideal SNodes .f32) (ei : IVec SEdges2 32) : FVec Ideal SNodes .f32 :=
  meanOf h (edgeRow 0 (by decide) ei) (edgeRow 1 (by decide) ei) (degVec (edgeRow 1 (by decide) ei))

/-- The neighbour mean, the degree counted the second way. -/
def meanCol (h : FVec Ideal SNodes .f32) (ei : IVec SEdges2 32) : FVec Ideal SNodes .f32 :=
  meanOf h (edgeRow 0 (by decide) ei) (edgeRow 1 (by decide) ei) (degCol (edgeRow 1 (by decide) ei))

/-! ## The dense part -/

/-- One layer from the neighbour mean: entry (r, c) is max ((Σₖ mean(r,k)·Wl(k,c) + Σₖ h(r,k)·Wr(k,c)) + b(c), 0). -/
def layer (mean h : SNodes.Idx → EReal) (Wl Wr : SW.Idx → EReal) (b : SB.Idx → EReal) : SNodes.Idx → EReal :=
  fun i => max ((∑ k : Fin 128, mean (ix2 (i 0) k) * Wl (ix2 k (i 1)) + ∑ k : Fin 128, h (ix2 (i 0) k) * Wr (ix2 k (i 1)))
    + b (ix1 (i 1))) (Ideal.ofBits .f32 0x00000000#32)

/-- The last product, as a column: entry (r, 0) is Σₖ h(r,k)·Wlin(k,0) + blin(0). -/
def headCol (h : SNodes.Idx → EReal) (Wlin : SWlin.Idx → EReal) (blin : SBlin.Idx → EReal) : SDegCol.Idx → EReal :=
  fun i => ∑ k : Fin 128, h (ix2 (i 0) k) * Wlin (ix2 k (i 1)) + blin (ix1 0)

theorem layer_apply (mean h : SNodes.Idx → EReal) (Wl Wr : SW.Idx → EReal) (b : SB.Idx → EReal) (r : Fin 50000) (q : Fin 128) :
    layer mean h Wl Wr b (ix2 r q)
      = max ((∑ k : Fin 128, mean (ix2 r k) * Wl (ix2 k q) + ∑ k : Fin 128, h (ix2 r k) * Wr (ix2 k q)) + b (ix1 q))
          (Ideal.ofBits .f32 0x00000000#32) := rfl

theorem headCol_apply (h : SNodes.Idx → EReal) (Wlin : SWlin.Idx → EReal) (blin : SBlin.Idx → EReal) (r : Fin 50000) (q : Fin 1) :
    headCol h Wlin blin (ix2 r q) = ∑ k : Fin 128, h (ix2 r k) * Wlin (ix2 k q) + blin (ix1 0) := rfl

/-- The column read as a vector over the nodes. -/
def head (h : SNodes.Idx → EReal) (Wlin : SWlin.Idx → EReal) (blin : SBlin.Idx → EReal) : SDeg.Idx → EReal :=
  shapeCast SDeg (headCol h Wlin blin) (by decide)

/-! ## The whole network, for a given way `mean` of forming the neighbour mean -/

/-- The first layer's output. -/
def hidden1 (mean : FVec Ideal SNodes .f32 → IVec SEdges2 32 → FVec Ideal SNodes .f32) (x : SNodes.Idx → EReal)
    (ei : IVec SEdges2 32) (W1l W1r : SW.Idx → EReal) (b1 : SB.Idx → EReal) : SNodes.Idx → EReal :=
  layer (mean x ei) x W1l W1r b1

/-- The second layer's output (the program's second result). -/
def hidden2 (mean : FVec Ideal SNodes .f32 → IVec SEdges2 32 → FVec Ideal SNodes .f32) (x : SNodes.Idx → EReal)
    (ei : IVec SEdges2 32) (W1l W1r : SW.Idx → EReal) (b1 : SB.Idx → EReal) (W2l W2r : SW.Idx → EReal) (b2 : SB.Idx → EReal) :
    SNodes.Idx → EReal :=
  layer (mean (hidden1 mean x ei W1l W1r b1) ei) (hidden1 mean x ei W1l W1r b1) W2l W2r b2

/-- One number per node (the program's first result). -/
def output (mean : FVec Ideal SNodes .f32 → IVec SEdges2 32 → FVec Ideal SNodes .f32) (x : SNodes.Idx → EReal)
    (ei : IVec SEdges2 32) (W1l W1r : SW.Idx → EReal) (b1 : SB.Idx → EReal) (W2l W2r : SW.Idx → EReal) (b2 : SB.Idx → EReal)
    (Wlin : SWlin.Idx → EReal) (blin : SBlin.Idx → EReal) : SDeg.Idx → EReal :=
  head (hidden2 mean x ei W1l W1r b1 W2l W2r b2) Wlin blin

end Cert.Sage

end
-- ==== Proof.Region0.lean ====
/-
  The first layer's region: what its output array holds after the 25 grid points.

  The region's grid has 25 points; point `t` works on rows 2000·t … 2000·t + 1999. Its row-block windows
  (the neighbour mean, the node features and the output) move with the point, the other windows stay on their whole array. What the body leaves in the
  output block at point `t` is therefore rows 2000·t … of ONE function of the arrays as the region finds them —
  the layer of Spec.lean — and, the 25 blocks tiling the 50000 rows, the output array ends holding that function.
-/
import proofs.«164059_j49606872269111_1_alg».proof.Proof.Gen.KernelIdeal.Frame
import proofs.«164059_j49606872269111_1_alg».proof.Proof.Payload
import proofs.«164059_j49606872269111_1_alg».proof.Proof.Spec
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row-block windows sit at block `t`, the others at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A row-block window's block at point `t` reads rows 2000·t … of its array. -/
theorem rows0 (c : Dev nD) (t : Fin cfg0.N) (p : Fin 2000) (k : Fin 128) (r : Fin 50000) (hr : r.val = t.val * 2000 + p.val) :
    iblk0 V c 0 t (ix2 p k) = V c main_v22 (ix2 r k) := by
  show V c main_v22 (((cfg0.win 0).blk t).view.emb (ix2 p k)) = V c main_v22 (ix2 r k)
  refine congrArg (V c main_v22) (funext fun a => Fin.ext ?_)
  match a with
  | ⟨0, _⟩ => show win0_0.index t (0 : Fin 2) * 2000 + 1 * p.val = r.val; rw [(idx_facts t).1]; omega
  | ⟨1, _⟩ => show win0_0.index t (1 : Fin 2) * 128 + 1 * k.val = k.val; rw [(idx_facts t).2.1]; omega

theorem rows1 (c : Dev nD) (t : Fin cfg0.N) (p : Fin 2000) (k : Fin 128) (r : Fin 50000) (hr : r.val = t.val * 2000 + p.val) :
    iblk0 V c 1 t (ix2 p k) = V c main_arg0 (ix2 r k) := by
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 2000 + 1 * p.val = r.val; rw [(idx_facts t).2.2.1]; omega
  | ⟨1, _⟩ => show win0_1.index t (1 : Fin 2) * 128 + 1 * k.val = k.val; rw [(idx_facts t).2.2.2.1]; omega

/-- A whole-array window's block is its array. -/
theorem whole2 (c : Dev nD) (t : Fin cfg0.N) (k : Fin 128) (q : Fin 128) :
    iblk0 V c 2 t (ix2 k q) = V c main_arg2 (ix2 k q) := by
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; rw [(idx_facts t).2.2.2.2.1]; omega
  | ⟨1, _⟩ => show win0_2.index t (1 : Fin 2) * 128 + 1 * q.val = q.val; rw [(idx_facts t).2.2.2.2.2.1]; omega

theorem whole3 (c : Dev nD) (t : Fin cfg0.N) (k : Fin 128) (q : Fin 128) :
    iblk0 V c 3 t (ix2 k q) = V c main_arg3 (ix2 k q) := by
  show V c main_arg3 (((cfg0.win 3).blk t).view.emb (ix2 k q)) = V c main_arg3 (ix2 k q)
  refine congrArg (V c main_arg3) (funext fun a => Fin.ext ?_)
  match a with
  | ⟨0, _⟩ => show win0_3.index t (0 : Fin 2) * 128 + 1 * k.val = k.val; rw [(idx_facts t).2.2.2.2.2.2.1]; omega
  | ⟨1, _⟩ => show win0_3.index t (1 : Fin 2) * 128 + 1 * q.val = q.val; rw [(idx_facts t).2.2.2.2.2.2.2.1]; omega

theorem whole4 (c : Dev nD) (t : Fin cfg0.N) (q : Fin 128) :
    iblk0 V c 4 t (ix1 q) = V c main_arg4 (ix1 q) := by
  show V c main_arg4 (((cfg0.win 4).blk t).view.emb (ix1 q)) = V c main_arg4 (ix1 q)
  refine congrArg (V c main_arg4) (funext fun a => Fin.ext ?_)
  match a with
  | ⟨0, _⟩ => show win0_4.index t (0 : Fin 1) * 128 + 1 * q.val = q.val; rw [(idx_facts t).2.2.2.2.2.2.2.2.1]; omega

/-- What the output array ends holding, as one function of the arrays the region finds. -/
abbrev result (c : Dev nD) : S50000x128.Idx → EReal :=
  Cert.Sage.layer (V c main_v22) (V c main_arg0) (V c main_arg2) (V c main_arg3) (V c main_arg4)

/-- What point `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero2]
  simp only [View.ld_unit_zero (S := S2000x128) zero2, View.ld_unit_zero (S := S128x128) zero2, View.ld_unit_zero (S := S128) zero1]
  refine funext fun (j : S2000x128.Idx) => ?_
  obtain ⟨p, q, rfl⟩ : ∃ (p : Fin 2000) (q : Fin 128), j = ix2 p q := ⟨j 0, j 1, eq_ix2 j⟩
  obtain ⟨r, hr⟩ : ∃ r : Fin 50000, r.val = t.val * 2000 + p.val :=
    ⟨⟨t.val * 2000 + p.val, by have h1 := t.isLt; have h2 : cfg0.N = 25 := N_0; have h3 := p.isLt; omega⟩, rfl⟩
  have hemb : ((cfg0.win 5).blk t).view.emb (ix2 p q) = (ix2 r q : S50000x128.Idx) := by
    funext a; apply Fin.ext
    match a with
    | ⟨0, _⟩ => show win0_5.index t (0 : Fin 2) * 2000 + 1 * p.val = r.val; rw [(idx_facts t).2.2.2.2.2.2.2.2.2.1]; omega
    | ⟨1, _⟩ => show win0_5.index t (1 : Fin 2) * 128 + 1 * q.val = q.val; rw [(idx_facts t).2.2.2.2.2.2.2.2.2.2]; omega
  show k0_pay1 (F := Ideal) (iblk0 V c 0 t) (iblk0 V c 1 t) (iblk0 V c 2 t) (iblk0 V c 3 t) (iblk0 V c 4 t) (ix2 p q) = result V c (((cfg0.win 5).blk t).view.emb (ix2 p q))
  rw [hemb]
  refine (Payload.layer0_apply (iblk0 V c 0 t) (iblk0 V c 1 t) (iblk0 V c 2 t) (iblk0 V c 3 t) (iblk0 V c 4 t) p q).trans ?_
  refine Eq.trans ?_ (Cert.Sage.layer_apply (V c main_v22) (V c main_arg0) (V c main_arg2) (V c main_arg3) (V c main_arg4) r q).symm
  rw [whole4 V c t q]
  refine congrArg (fun z : EReal => max (z + (V c main_arg4 (ix1 q) : EReal)) (Ideal.ofBits .f32 0x00000000#32)) ?_
  refine congrArg₂ (· + ·) (Finset.sum_congr rfl fun k _ => ?_) (Finset.sum_congr rfl fun k _ => ?_)
  · rw [rows0 V c t p k r hr, whole2 V c t k q]
  · rw [rows1 V c t p k r hr, whole3 V c t k q]

/-- An index of the output array is in point `t`'s block iff each coordinate is in the block's range. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- Every row is in the block of the point its number divided by 2000 names. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_5 _, ?_⟩
  rw [mem_blk]
  have f0 := (idx_facts ⟨(i 0).val / 2000, by rw [hN]; omega⟩).2.2.2.2.2.2.2.2.2.1
  have f1 := (idx_facts ⟨(i 0).val / 2000, by rw [hN]; omega⟩).2.2.2.2.2.2.2.2.2.2
  intro a
  match a with
  | ⟨0, _⟩ =>
    show win0_5.index _ (0 : Fin 2) * 2000 ≤ (i 0).val ∧ (i 0).val < win0_5.index _ (0 : Fin 2) * 2000 + 2000
    rw [f0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [f1]; omega

/-- The output array after the region. -/
theorem final (c : Dev nD) : (dat0 V c).arrAt 5 cfg0.N = result V c :=
  (dat0 V c).arrAt_eq_of_cover 5 (result V c) (fun t _ => flushed_eq V c t) (cover)

end Cert.KernelIdeal.Region0

end
-- ==== Proof.Region1.lean ====
/-
  The second layer's region: what its output array holds after the 25 grid points.

  The region's grid has 25 points; point `t` works on rows 2000·t … 2000·t + 1999. Its row-block windows
  (the neighbour mean, the node features and the output) move with the point, the other windows stay on their whole array. What the body leaves in the
  output block at point `t` is therefore rows 2000·t … of ONE function of the arrays as the region finds them —
  the layer of Spec.lean — and, the 25 blocks tiling the 50000 rows, the output array ends holding that function.
-/
import proofs.«164059_j49606872269111_1_alg».proof.Proof.Gen.KernelIdeal.Frame
import proofs.«164059_j49606872269111_1_alg».proof.Proof.Payload
import proofs.«164059_j49606872269111_1_alg».proof.Proof.Spec
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row-block windows sit at block `t`, the others at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A row-block window's block at point `t` reads rows 2000·t … of its array. -/
theorem rows0 (c : Dev nD) (t : Fin cfg1.N) (p : Fin 2000) (k : Fin 128) (r : Fin 50000) (hr : r.val = t.val * 2000 + p.val) :
    iblk1 V c 0 t (ix2 p k) = V c main_v35 (ix2 r k) := by
  show V c main_v35 (((cfg1.win 0).blk t).view.emb (ix2 p k)) = V c main_v35 (ix2 r k)
  refine congrArg (V c main_v35) (funext fun a => Fin.ext ?_)
  match a with
  | ⟨0, _⟩ => show win1_0.index t (0 : Fin 2) * 2000 + 1 * p.val = r.val; rw [(idx_facts t).1]; omega
  | ⟨1, _⟩ => show win1_0.index t (1 : Fin 2) * 128 + 1 * k.val = k.val; rw [(idx_facts t).2.1]; omega

theorem rows1 (c : Dev nD) (t : Fin cfg1.N) (p : Fin 2000) (k : Fin 128) (r : Fin 50000) (hr : r.val = t.val * 2000 + p.val) :
    iblk1 V c 1 t (ix2 p k) = V c main_v23 (ix2 r k) := by
  show V c main_v23 (((cfg1.win 1).blk t).view.emb (ix2 p k)) = V c main_v23 (ix2 r k)
  refine congrArg (V c main_v23) (funext fun a => Fin.ext ?_)
  match a with
  | ⟨0, _⟩ => show win1_1.index t (0 : Fin 2) * 2000 + 1 * p.val = r.val; rw [(idx_facts t).2.2.1]; omega
  | ⟨1, _⟩ => show win1_1.index t (1 : Fin 2) * 128 + 1 * k.val = k.val; rw [(idx_facts t).2.2.2.1]; omega

/-- A whole-array window's block is its array. -/
theorem whole2 (c : Dev nD) (t : Fin cfg1.N) (k : Fin 128) (q : Fin 128) :
    iblk1 V c 2 t (ix2 k q) = V c main_arg5 (ix2 k q) := by
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; rw [(idx_facts t).2.2.2.2.1]; omega
  | ⟨1, _⟩ => show win1_2.index t (1 : Fin 2) * 128 + 1 * q.val = q.val; rw [(idx_facts t).2.2.2.2.2.1]; omega

theorem whole3 (c : Dev nD) (t : Fin cfg1.N) (k : Fin 128) (q : Fin 128) :
    iblk1 V c 3 t (ix2 k q) = V c main_arg6 (ix2 k q) := by
  show V c main_arg6 (((cfg1.win 3).blk t).view.emb (ix2 k q)) = V c main_arg6 (ix2 k q)
  refine congrArg (V c main_arg6) (funext fun a => Fin.ext ?_)
  match a with
  | ⟨0, _⟩ => show win1_3.index t (0 : Fin 2) * 128 + 1 * k.val = k.val; rw [(idx_facts t).2.2.2.2.2.2.1]; omega
  | ⟨1, _⟩ => show win1_3.index t (1 : Fin 2) * 128 + 1 * q.val = q.val; rw [(idx_facts t).2.2.2.2.2.2.2.1]; omega

theorem whole4 (c : Dev nD) (t : Fin cfg1.N) (q : Fin 128) :
    iblk1 V c 4 t (ix1 q) = V c main_arg7 (ix1 q) := by
  show V c main_arg7 (((cfg1.win 4).blk t).view.emb (ix1 q)) = V c main_arg7 (ix1 q)
  refine congrArg (V c main_arg7) (funext fun a => Fin.ext ?_)
  match a with
  | ⟨0, _⟩ => show win1_4.index t (0 : Fin 1) * 128 + 1 * q.val = q.val; rw [(idx_facts t).2.2.2.2.2.2.2.2.1]; omega

/-- What the output array ends holding, as one function of the arrays the region finds. -/
abbrev result (c : Dev nD) : S50000x128.Idx → EReal :=
  Cert.Sage.layer (V c main_v35) (V c main_v23) (V c main_arg5) (V c main_arg6) (V c main_arg7)

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero2]
  simp only [View.ld_unit_zero (S := S2000x128) zero2, View.ld_unit_zero (S := S128x128) zero2, View.ld_unit_zero (S := S128) zero1]
  refine funext fun (j : S2000x128.Idx) => ?_
  obtain ⟨p, q, rfl⟩ : ∃ (p : Fin 2000) (q : Fin 128), j = ix2 p q := ⟨j 0, j 1, eq_ix2 j⟩
  obtain ⟨r, hr⟩ : ∃ r : Fin 50000, r.val = t.val * 2000 + p.val :=
    ⟨⟨t.val * 2000 + p.val, by have h1 := t.isLt; have h2 : cfg1.N = 25 := N_1; have h3 := p.isLt; omega⟩, rfl⟩
  have hemb : ((cfg1.win 5).blk t).view.emb (ix2 p q) = (ix2 r q : S50000x128.Idx) := by
    funext a; apply Fin.ext
    match a with
    | ⟨0, _⟩ => show win1_5.index t (0 : Fin 2) * 2000 + 1 * p.val = r.val; rw [(idx_facts t).2.2.2.2.2.2.2.2.2.1]; omega
    | ⟨1, _⟩ => show win1_5.index t (1 : Fin 2) * 128 + 1 * q.val = q.val; rw [(idx_facts t).2.2.2.2.2.2.2.2.2.2]; omega
  show k1_pay1 (F := Ideal) (iblk1 V c 0 t) (iblk1 V c 1 t) (iblk1 V c 2 t) (iblk1 V c 3 t) (iblk1 V c 4 t) (ix2 p q) = result V c (((cfg1.win 5).blk t).view.emb (ix2 p q))
  rw [hemb]
  refine (Payload.layer1_apply (iblk1 V c 0 t) (iblk1 V c 1 t) (iblk1 V c 2 t) (iblk1 V c 3 t) (iblk1 V c 4 t) p q).trans ?_
  refine Eq.trans ?_ (Cert.Sage.layer_apply (V c main_v35) (V c main_v23) (V c main_arg5) (V c main_arg6) (V c main_arg7) r q).symm
  rw [whole4 V c t q]
  refine congrArg (fun z : EReal => max (z + (V c main_arg7 (ix1 q) : EReal)) (Ideal.ofBits .f32 0x00000000#32)) ?_
  refine congrArg₂ (· + ·) (Finset.sum_congr rfl fun k _ => ?_) (Finset.sum_congr rfl fun k _ => ?_)
  · rw [rows0 V c t p k r hr, whole2 V c t k q]
  · rw [rows1 V c t p k r hr, whole3 V c t k q]

/-- An index of the output array is in point `t`'s block iff each coordinate is in the block's range. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v36).slice (win1_5.rect t)).set ↔ _
  rw [View.set_slice_whole, Rect.mem_set_unit]
  exact Iff.rfl

/-- Every row is in the block of the point its number divided by 2000 names. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  rw [mem_blk]
  have f0 := (idx_facts ⟨(i 0).val / 2000, by rw [hN]; omega⟩).2.2.2.2.2.2.2.2.2.1
  have f1 := (idx_facts ⟨(i 0).val / 2000, by rw [hN]; omega⟩).2.2.2.2.2.2.2.2.2.2
  intro a
  match a with
  | ⟨0, _⟩ =>
    show win1_5.index _ (0 : Fin 2) * 2000 ≤ (i 0).val ∧ (i 0).val < win1_5.index _ (0 : Fin 2) * 2000 + 2000
    rw [f0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [f1]; omega

/-- The output array after the region. -/
theorem final (c : Dev nD) : (dat1 V c).arrAt 5 cfg1.N = result V c :=
  (dat1 V c).arrAt_eq_of_cover 5 (result V c) (fun t _ => flushed_eq V c t) (cover)

end Cert.KernelIdeal.Region1

end
-- ==== Proof.Region2.lean ====
/-
  The last product's region: what its output column holds after the 25 grid points.

  The region's grid has 25 points; point `t` works on rows 2000·t … 2000·t + 1999. Its row-block windows
  (the second layer's output and the output column) move with the point, the other windows stay on their whole array. What the body leaves in the
  output block at point `t` is therefore rows 2000·t … of ONE function of the arrays as the region finds them —
  the product with the 128×1 column plus the scalar, Spec.lean's `headCol` — and, the 25 blocks tiling the 50000 rows, the output array ends holding that function.
-/
import proofs.«164059_j49606872269111_1_alg».proof.Proof.Gen.KernelIdeal.Frame
import proofs.«164059_j49606872269111_1_alg».proof.Proof.Payload
import proofs.«164059_j49606872269111_1_alg».proof.Proof.Spec
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row-block windows sit at block `t`, the others at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The row-block window's block at point `t` reads rows 2000·t … of its array. -/
theorem rows0 (c : Dev nD) (t : Fin cfg2.N) (p : Fin 2000) (k : Fin 128) (r : Fin 50000) (hr : r.val = t.val * 2000 + p.val) :
    iblk2 V c 0 t (ix2 p k) = V c main_v36 (ix2 r k) := by
  show V c main_v36 (((cfg2.win 0).blk t).view.emb (ix2 p k)) = V c main_v36 (ix2 r k)
  refine congrArg (V c main_v36) (funext fun a => Fin.ext ?_)
  match a with
  | ⟨0, _⟩ => show win2_0.index t (0 : Fin 2) * 2000 + 1 * p.val = r.val; rw [(idx_facts t).1]; omega
  | ⟨1, _⟩ => show win2_0.index t (1 : Fin 2) * 128 + 1 * k.val = k.val; rw [(idx_facts t).2.1]; omega

/-- A whole-array window's block is its array. -/
theorem whole1 (c : Dev nD) (t : Fin cfg2.N) (k : Fin 128) (q : Fin 1) :
    iblk2 V c 1 t (ix2 k q) = V c main_arg8 (ix2 k q) := by
  show V c main_arg8 (((cfg2.win 1).blk t).view.emb (ix2 k q)) = V c main_arg8 (ix2 k q)
  refine congrArg (V c main_arg8) (funext fun a => Fin.ext ?_)
  match a with
  | ⟨0, _⟩ => show win2_1.index t (0 : Fin 2) * 128 + 1 * k.val = k.val; rw [(idx_facts t).2.2.1]; omega
  | ⟨1, _⟩ => show win2_1.index t (1 : Fin 2) * 1 + 1 * q.val = q.val; rw [(idx_facts t).2.2.2.1]; omega

theorem whole2 (c : Dev nD) (t : Fin cfg2.N) (q : Fin 1) :
    iblk2 V c 2 t (ix1 q) = V c main_arg9 (ix1 q) := by
  show V c main_arg9 (((cfg2.win 2).blk t).view.emb (ix1 q)) = V c main_arg9 (ix1 q)
  refine congrArg (V c main_arg9) (funext fun a => Fin.ext ?_)
  match a with
  | ⟨0, _⟩ => show win2_2.index t (0 : Fin 1) * 1 + 1 * q.val = q.val; rw [(idx_facts t).2.2.2.2.1]; omega

/-- What the output array ends holding, as one function of the arrays the region finds. -/
abbrev result (c : Dev nD) : S50000x1.Idx → EReal :=
  Cert.Sage.headCol (V c main_v36) (V c main_arg8) (V c main_arg9)

/-- What point `t` writes back is block `t` of `result`. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero zero2]
  simp only [View.ld_unit_zero (S := S2000x128) zero2, View.ld_unit_zero (S := S128x1) zero2, View.ld_unit_zero (S := S1) zero1]
  refine funext fun (j : S2000x1.Idx) => ?_
  obtain ⟨p, q, rfl⟩ : ∃ (p : Fin 2000) (q : Fin 1), j = ix2 p q := ⟨j 0, j 1, eq_ix2 j⟩
  obtain ⟨r, hr⟩ : ∃ r : Fin 50000, r.val = t.val * 2000 + p.val :=
    ⟨⟨t.val * 2000 + p.val, by have h1 := t.isLt; have h2 : cfg2.N = 25 := N_2; have h3 := p.isLt; omega⟩, rfl⟩
  have hemb : ((cfg2.win 3).blk t).view.emb (ix2 p q) = (ix2 r q : S50000x1.Idx) := by
    funext a; apply Fin.ext
    match a with
    | ⟨0, _⟩ => show win2_3.index t (0 : Fin 2) * 2000 + 1 * p.val = r.val; rw [(idx_facts t).2.2.2.2.2.1]; omega
    | ⟨1, _⟩ => show win2_3.index t (1 : Fin 2) * 1 + 1 * q.val = q.val; rw [(idx_facts t).2.2.2.2.2.2]; omega
  show k2_pay1 (F := Ideal) (iblk2 V c 0 t) (iblk2 V c 1 t) (iblk2 V c 2 t) (ix2 p q) = result V c (((cfg2.win 3).blk t).view.emb (ix2 p q))
  rw [hemb]
  refine (Payload.head_apply (iblk2 V c 0 t) (iblk2 V c 1 t) (iblk2 V c 2 t) p q).trans ?_
  refine Eq.trans ?_ (Cert.Sage.headCol_apply (V c main_v36) (V c main_arg8) (V c main_arg9) r q).symm
  rw [whole2 V c t 0]
  refine congrArg (fun z : EReal => z + (V c main_arg9 (ix1 0) : EReal)) (Finset.sum_congr rfl fun k _ => ?_)
  rw [rows0 V c t p k r hr, whole1 V c t k q]

/-- An index of the output array is in point `t`'s block iff each coordinate is in the block's range. -/
theorem mem_blk (t : Fin cfg2.N) (i : S50000x1.Idx) :
    i ∈ ((cfg2.win 3).blk t).view.set ↔ ∀ a : Fin 2, win2_3.index t a * S2000x1.size a ≤ (i a).val ∧ (i a).val < win2_3.index t a * S2000x1.size a + S2000x1.size a := by
  show i ∈ ((View.whole main_v37).slice (win2_3.rect t)).set ↔ _
  rw [View.set_slice_whole, Rect.mem_set_unit]
  exact Iff.rfl

/-- Every row is in the block of the point its number divided by 2000 names. -/
theorem cover (i : S50000x1.Idx) :
    ∃ t : Fin cfg2.N, (cfg2.win 3).flush t = true ∧ i ∈ ((cfg2.win 3).blk t).view.set := by
  have hi0 : (i 0).val < 50000 := (i 0).isLt
  have hi1 : (i 1).val < 1 := (i 1).isLt
  have hN : cfg2.N = 25 := N_2
  refine ⟨⟨(i 0).val / 2000, by rw [hN]; omega⟩, flush2_3 _, ?_⟩
  rw [mem_blk]
  have f0 := (idx_facts ⟨(i 0).val / 2000, by rw [hN]; omega⟩).2.2.2.2.2.1
  have f1 := (idx_facts ⟨(i 0).val / 2000, by rw [hN]; omega⟩).2.2.2.2.2.2
  intro a
  match a with
  | ⟨0, _⟩ =>
    show win2_3.index _ (0 : Fin 2) * 2000 ≤ (i 0).val ∧ (i 0).val < win2_3.index _ (0 : Fin 2) * 2000 + 2000
    rw [f0]; show (i 0).val / 2000 * 2000 ≤ (i 0).val ∧ (i 0).val < (i 0).val / 2000 * 2000 + 2000; omega
  | ⟨1, _⟩ =>
    show win2_3.index _ (1 : Fin 2) * 1 ≤ (i 1).val ∧ (i 1).val < win2_3.index _ (1 : Fin 2) * 1 + 1
    rw [f1]; omega

/-- The output array after the region. -/
theorem final (c : Dev nD) : (dat2 V c).arrAt 3 cfg2.N = result V c :=
  (dat2 V c).arrAt_eq_of_cover 3 (result V c) (fun t _ => flushed_eq V c t) (cover)

end Cert.KernelIdeal.Region2

end
-- ==== Proof.KernelValue.lean ====
/-
  What the idealized kernel's two results hold, as functions of the ten arguments.

  Boundary by boundary through the program: the first stretch of host operations leaves the neighbour mean of
  the node features (degree counted by the rank-one scatter), the two edge rows and the degree column; the first
  region leaves the first layer's output (Region0.lean) and touches nothing else; the second stretch forms the
  neighbour mean of that output from the same edge rows and degree column; the second region leaves the second
  layer's output — the program's second result —; the third region leaves its product with the 128×1 column plus
  the scalar, as a column; and the last reshape reads that column as a vector — the first result.
-/
import proofs.«164059_j49606872269111_1_alg».proof.Proof.KernelRun
import proofs.«164059_j49606872269111_1_alg».proof.Proof.Region0
import proofs.«164059_j49606872269111_1_alg».proof.Proof.Region1
import proofs.«164059_j49606872269111_1_alg».proof.Proof.Region2
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

/-! ## The arguments, typed as the specification takes them -/

abbrev x : SNodes.Idx → EReal := m ((c : Thread nD τ).loc main_arg0)
abbrev ei : IVec SEdges2 32 := m ((c : Thread nD τ).loc main_arg1)
abbrev w1l : SW.Idx → EReal := m ((c : Thread nD τ).loc main_arg2)
abbrev w1r : SW.Idx → EReal := m ((c : Thread nD τ).loc main_arg3)
abbrev b1 : SB.Idx → EReal := m ((c : Thread nD τ).loc main_arg4)
abbrev w2l : SW.Idx → EReal := m ((c : Thread nD τ).loc main_arg5)
abbrev w2r : SW.Idx → EReal := m ((c : Thread nD τ).loc main_arg6)
abbrev b2 : SB.Idx → EReal := m ((c : Thread nD τ).loc main_arg7)
abbrev wlin : SWlin.Idx → EReal := m ((c : Thread nD τ).loc main_arg8)
abbrev blin : SBlin.Idx → EReal := m ((c : Thread nD τ).loc main_arg9)

/-! ## After the first stretch of host operations -/

theorem W1_mean : W1 m ρ c (Proc.devRef .tc main_v22) = meanVec (x m c) (ei m c) := by
  show StableHlo.after hostOps0 (W0 m ρ c) (Proc.devRef .tc main_v22) = _
  after_results_simp <;> rfl

theorem W1_src : W1 m ρ c (Proc.devRef .tc main_v1) = edgeRow 0 (by decide) (ei m c) := by
  show StableHlo.after hostOps0 (W0 m ρ c) (Proc.devRef .tc main_v1) = _
  after_results_simp <;> rfl

theorem W1_dst : W1 m ρ c (Proc.devRef .tc main_v3) = edgeRow 1 (by decide) (ei m c) := by
  show StableHlo.after hostOps0 (W0 m ρ c) (Proc.devRef .tc main_v3) = _
  after_results_simp <;> rfl

theorem W1_deg : W1 m ρ c (Proc.devRef .tc main_v10) = degVec (edgeRow 1 (by decide) (ei m c)) := by
  show StableHlo.after hostOps0 (W0 m ρ c) (Proc.devRef .tc main_v10) = _
  after_results_simp <;> rfl

theorem W1_arg0 : W1 m ρ c (Proc.devRef .tc main_arg0) = x m c := by
  show StableHlo.after hostOps0 (W0 m ρ c) (Proc.devRef .tc main_arg0) = _
  after_results_simp <;> rfl
theorem W1_arg2 : W1 m ρ c (Proc.devRef .tc main_arg2) = w1l m c := by
  show StableHlo.after hostOps0 (W0 m ρ c) (Proc.devRef .tc main_arg2) = _
  after_results_simp <;> rfl
theorem W1_arg3 : W1 m ρ c (Proc.devRef .tc main_arg3) = w1r m c := by
  show StableHlo.after hostOps0 (W0 m ρ c) (Proc.devRef .tc main_arg3) = _
  after_results_simp <;> rfl
theorem W1_arg4 : W1 m ρ c (Proc.devRef .tc main_arg4) = b1 m c := by
  show StableHlo.after hostOps0 (W0 m ρ c) (Proc.devRef .tc main_arg4) = _
  after_results_simp <;> rfl
theorem W1_arg5 : W1 m ρ c (Proc.devRef .tc main_arg5) = w2l m c := by
  show StableHlo.after hostOps0 (W0 m ρ c) (Proc.devRef .tc main_arg5) = _
  after_results_simp <;> rfl
theorem W1_arg6 : W1 m ρ c (Proc.devRef .tc main_arg6) = w2r m c := by
  show StableHlo.after hostOps0 (W0 m ρ c) (Proc.devRef .tc main_arg6) = _
  after_results_simp <;> rfl
theorem W1_arg7 : W1 m ρ c (Proc.devRef .tc main_arg7) = b2 m c := by
  show StableHlo.after hostOps0 (W0 m ρ c) (Proc.devRef .tc main_arg7) = _
  after_results_simp <;> rfl
theorem W1_arg8 : W1 m ρ c (Proc.devRef .tc main_arg8) = wlin m c := by
  show StableHlo.after hostOps0 (W0 m ρ c) (Proc.devRef .tc main_arg8) = _
  after_results_simp <;> rfl
theorem W1_arg9 : W1 m ρ c (Proc.devRef .tc main_arg9) = blin m c := by
  show StableHlo.after hostOps0 (W0 m ρ c) (Proc.devRef .tc main_arg9) = _
  after_results_simp <;> rfl

/-! ## After the first region -/

/-- The first layer's output. -/
theorem W2_h1 : W2 m ρ c (Proc.devRef .tc main_v23)
    = hidden1 meanVec (x m c) (ei m c) (w1l m c) (w1r m c) (b1 m c) := by
  refine (W2_arr m ρ c 5).trans ((Region0.final (V1 m ρ) c).trans ?_)
  show layer (W1 m ρ c (Proc.devRef .tc main_v22)) (W1 m ρ c (Proc.devRef .tc main_arg0)) (W1 m ρ c (Proc.devRef .tc main_arg2))
    (W1 m ρ c (Proc.devRef .tc main_arg3)) (W1 m ρ c (Proc.devRef .tc main_arg4)) = _
  rw [W1_mean, W1_arg0, W1_arg2, W1_arg3, W1_arg4]
  rfl

theorem W2_src : W2 m ρ c (Proc.devRef .tc main_v1) = edgeRow 0 (by decide) (ei m c) :=
  (W2_of_ne m ρ c main_v1 (by decide)).trans (W1_src m ρ c)
theorem W2_dst : W2 m ρ c (Proc.devRef .tc main_v3) = edgeRow 1 (by decide) (ei m c) :=
  (W2_of_ne m ρ c main_v3 (by decide)).trans (W1_dst m ρ c)
theorem W2_deg : W2 m ρ c (Proc.devRef .tc main_v10) = degVec (edgeRow 1 (by decide) (ei m c)) :=
  (W2_of_ne m ρ c main_v10 (by decide)).trans (W1_deg m ρ c)
theorem W2_arg5 : W2 m ρ c (Proc.devRef .tc main_arg5) = w2l m c :=
  (W2_of_ne m ρ c main_arg5 (by decide)).trans (W1_arg5 m ρ c)
theorem W2_arg6 : W2 m ρ c (Proc.devRef .tc main_arg6) = w2r m c :=
  (W2_of_ne m ρ c main_arg6 (by decide)).trans (W1_arg6 m ρ c)
theorem W2_arg7 : W2 m ρ c (Proc.devRef .tc main_arg7) = b2 m c :=
  (W2_of_ne m ρ c main_arg7 (by decide)).trans (W1_arg7 m ρ c)
theorem W2_arg8 : W2 m ρ c (Proc.devRef .tc main_arg8) = wlin m c :=
  (W2_of_ne m ρ c main_arg8 (by decide)).trans (W1_arg8 m ρ c)
theorem W2_arg9 : W2 m ρ c (Proc.devRef .tc main_arg9) = blin m c :=
  (W2_of_ne m ρ c main_arg9 (by decide)).trans (W1_arg9 m ρ c)

/-! ## After the second stretch of host operations -/

/-- The neighbour mean of whatever the first region left, from the edge rows and degree column still in place. -/
theorem W3_mean : W3 m ρ c (Proc.devRef .tc main_v35)
    = meanOf (W2 m ρ c (Proc.devRef .tc main_v23)) (W2 m ρ c (Proc.devRef .tc main_v1)) (W2 m ρ c (Proc.devRef .tc main_v3))
        (W2 m ρ c (Proc.devRef .tc main_v10)) := by
  show StableHlo.after hostOps1 (W2 m ρ c) (Proc.devRef .tc main_v35) = _
  after_results_simp <;> rfl

theorem W3_h1 : W3 m ρ c (Proc.devRef .tc main_v23) = W2 m ρ c (Proc.devRef .tc main_v23) := by
  show StableHlo.after hostOps1 (W2 m ρ c) (Proc.devRef .tc main_v23) = _
  after_results_simp <;> rfl
theorem W3_arg5 : W3 m ρ c (Proc.devRef .tc main_arg5) = W2 m ρ c (Proc.devRef .tc main_arg5) := by
  show StableHlo.after hostOps1 (W2 m ρ c) (Proc.devRef .tc main_arg5) = _
  after_results_simp <;> rfl
theorem W3_arg6 : W3 m ρ c (Proc.devRef .tc main_arg6) = W2 m ρ c (Proc.devRef .tc main_arg6) := by
  show StableHlo.after hostOps1 (W2 m ρ c) (Proc.devRef .tc main_arg6) = _
  after_results_simp <;> rfl
theorem W3_arg7 : W3 m ρ c (Proc.devRef .tc main_arg7) = W2 m ρ c (Proc.devRef .tc main_arg7) := by
  show StableHlo.after hostOps1 (W2 m ρ c) (Proc.devRef .tc main_arg7) = _
  after_results_simp <;> rfl
theorem W3_arg8 : W3 m ρ c (Proc.devRef .tc main_arg8) = W2 m ρ c (Proc.devRef .tc main_arg8) := by
  show StableHlo.after hostOps1 (W2 m ρ c) (Proc.devRef .tc main_arg8) = _
  after_results_simp <;> rfl
theorem W3_arg9 : W3 m ρ c (Proc.devRef .tc main_arg9) = W2 m ρ c (Proc.devRef .tc main_arg9) := by
  show StableHlo.after hostOps1 (W2 m ρ c) (Proc.devRef .tc main_arg9) = _
  after_results_simp <;> rfl

/-! ## After the second and third regions -/

/-- The second layer's output. -/
theorem W4_h2 : W4 m ρ c (Proc.devRef .tc main_v36)
    = hidden2 meanVec (x m c) (ei m c) (w1l m c) (w1r m c) (b1 m c) (w2l m c) (w2r m c) (b2 m c) := by
  refine (W4_arr m ρ c 5).trans ((Region1.final (V3 m ρ) c).trans ?_)
  show layer (W3 m ρ c (Proc.devRef .tc main_v35)) (W3 m ρ c (Proc.devRef .tc main_v23)) (W3 m ρ c (Proc.devRef .tc main_arg5))
    (W3 m ρ c (Proc.devRef .tc main_arg6)) (W3 m ρ c (Proc.devRef .tc main_arg7)) = _
  rw [W3_mean, W3_h1, W3_arg5, W3_arg6, W3_arg7, W2_h1, W2_src, W2_dst, W2_deg, W2_arg5, W2_arg6, W2_arg7]
  rfl

theorem W4_arg8 : W4 m ρ c (Proc.devRef .tc main_arg8) = wlin m c :=
  (W4_of_ne m ρ c main_arg8 (by decide)).trans ((W3_arg8 m ρ c).trans (W2_arg8 m ρ c))
theorem W4_arg9 : W4 m ρ c (Proc.devRef .tc main_arg9) = blin m c :=
  (W4_of_ne m ρ c main_arg9 (by decide)).trans ((W3_arg9 m ρ c).trans (W2_arg9 m ρ c))

/-- The third region reads the second layer's output and leaves it in place. -/
theorem W5_h2 : W5 m ρ c (Proc.devRef .tc main_v36) = W4 m ρ c (Proc.devRef .tc main_v36) :=
  (W5_arr m ρ c 0).trans (((dat2 (V4 m ρ) c).arrAt_in 0 rfl _).trans (A_eq2 (V4 m ρ) c 0))

/-- The last product, as a column. -/
theorem W5_col : W5 m ρ c (Proc.devRef .tc main_v37)
    = headCol (hidden2 meanVec (x m c) (ei m c) (w1l m c) (w1r m c) (b1 m c) (w2l m c) (w2r m c) (b2 m c)) (wlin m c) (blin m c) := by
  refine (W5_arr m ρ c 3).trans ((Region2.final (V4 m ρ) c).trans ?_)
  show headCol (W4 m ρ c (Proc.devRef .tc main_v36)) (W4 m ρ c (Proc.devRef .tc main_arg8)) (W4 m ρ c (Proc.devRef .tc main_arg9)) = _
  rw [W4_h2, W4_arg8, W4_arg9]

/-! ## The two results -/

/-- The second result: the second layer's output. -/
theorem result_hidden : W6 m ρ c (Proc.devRef .tc main_v36)
    = hidden2 meanVec (x m c) (ei m c) (w1l m c) (w1r m c) (b1 m c) (w2l m c) (w2r m c) (b2 m c) := by
  refine Eq.trans ?_ ((W5_h2 m ρ c).trans (W4_h2 m ρ c))
  show StableHlo.after hostOps3 (W5 m ρ c) (Proc.devRef .tc main_v36) = _
  after_results_simp <;> rfl

/-- The first result: one number per node. -/
theorem result_output : W6 m ρ c (Proc.devRef .tc main_v38)
    = output meanVec (x m c) (ei m c) (w1l m c) (w1r m c) (b1 m c) (w2l m c) (w2r m c) (b2 m c) (wlin m c) (blin m c) := by
  have h : W6 m ρ c (Proc.devRef .tc main_v38) = shapeCast SDeg (W5 m ρ c (Proc.devRef .tc main_v37)) (by decide) := by
    show StableHlo.after hostOps3 (W5 m ρ c) (Proc.devRef .tc main_v38) = _
    after_results_simp <;> rfl
  rw [h, W5_col]
  rfl

end Cert.KernelIdeal.KernelValue

end
-- ==== Proof.RefValue.lean ====
/-
  What the idealized reference's two results hold, as functions of the ten arguments.

  The reference is one straight line of host operations. Its layer is two whole-array products with the 128×128
  matrices, their sum, the bias row spread over the 50000 rows, and a maximum with zero: read at entry (r, c) that
  is the layer of Spec.lean (each product the sum over the 128 contracted positions). Its neighbour mean divides
  the aggregated rows by the degree counted with a scatter of a column of ones. Its last product with the 128×1
  column plus the scalar, reshaped to a vector, is Spec.lean's `head`.
-/
import proofs.«164059_j49606872269111_1_alg».proof.Proof.Gen.ReferenceIdeal.Run
import proofs.«164059_j49606872269111_1_alg».proof.Proof.Spec
import proofs.«164059_j49606872269111_1_alg».proof.Proof.LibDot
import Idealize.ShloMosaic.Lib.Pipeline.Value

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.Sage

/-- The layers' whole-array product contracts axis 1 of a 50000×128 array with axis 0 of a 128×128 matrix. -/
theorem plainLayer : Cert.LibDot.Plain (M := 50000) (K := 128) (N := 128) dot_S50000x128_S128x128_S50000x128_1_0_0_1_n_n where
  hrank := rfl
  hs := rfl
  hl0 := fun _ _ => rfl
  hl1 := fun j k => dot_S50000x128_S128x128_S50000x128_1_0_0_1_n_n.lhsIdx_val_of_single rfl j k
  hr0 := fun j k => dot_S50000x128_S128x128_S50000x128_1_0_0_1_n_n.rhsIdx_val_of_single rfl j k
  hr1 := fun _ _ => rfl

/-- The last product contracts axis 1 of a 50000×128 array with axis 0 of the 128×1 column. -/
theorem plainHead : Cert.LibDot.Plain (M := 50000) (K := 128) (N := 1) dot_S50000x128_S128x1_S50000x1_1_0_0_1_n_n where
  hrank := rfl
  hs := rfl
  hl0 := fun _ _ => rfl
  hl1 := fun j k => dot_S50000x128_S128x1_S50000x1_1_0_0_1_n_n.lhsIdx_val_of_single rfl j k
  hr0 := fun j k => dot_S50000x128_S128x1_S50000x1_1_0_0_1_n_n.rhsIdx_val_of_single rfl j k
  hr1 := fun _ _ => rfl

/-- One layer as the reference's host operations spell it. -/
def hostLayer (mean h : FVec Ideal S50000x128 .f32) (Wl Wr : FVec Ideal S128x128 .f32) (b : FVec Ideal S128 .f32) :
    FVec Ideal S50000x128 .f32 :=
  maximumf
    (addf
      (addf (Host.dotGeneral dot_S50000x128_S128x128_S50000x128_1_0_0_1_n_n none mean Wl)
        (Host.dotGeneral dot_S50000x128_S128x128_S50000x128_1_0_0_1_n_n none h Wr))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The bias row spread over the rows reads the bias at the column. -/
theorem biasRow (b : FVec Ideal S128 .f32) (r : Fin 50000) (q : Fin 128) :
    broadcastInDim S50000x128 ![0, 1] bcast_S1x128_S50000x128_0_1 (broadcastInDim S1x128 ![1] bcast_S128_S1x128_1 b) (ix2 r q)
      = b (ix1 q) :=
  (broadcastInDim_apply _ _ _ (ix2 r q) (ix2 (0 : Fin 1) q) (fun a => match a with | ⟨0, _⟩ => rfl | ⟨1, _⟩ => rfl)).trans
    (broadcastInDim_apply _ _ _ (ix2 (0 : Fin 1) q) (ix1 q) (fun a => match a with | ⟨0, _⟩ => rfl))

/-- The reference's layer is the layer of the specification. -/
theorem hostLayer_eq (mean h : FVec Ideal S50000x128 .f32) (Wl Wr : FVec Ideal S128x128 .f32) (b : FVec Ideal S128 .f32) :
    hostLayer mean h Wl Wr b = layer mean h Wl Wr b := by
  funext i
  obtain ⟨r, q, rfl⟩ : ∃ (r : Fin 50000) (q : Fin 128), i = ix2 r q := ⟨i 0, i 1, eq_ix2 i⟩
  refine Eq.trans ?_ (layer_apply mean h Wl Wr b r q).symm
  refine (show hostLayer mean h Wl Wr b (ix2 r q)
      = max ((Host.dotGeneral (F := Ideal) dot_S50000x128_S128x128_S50000x128_1_0_0_1_n_n none mean Wl (ix2 r q)
              + Host.dotGeneral (F := Ideal) dot_S50000x128_S128x128_S50000x128_1_0_0_1_n_n none h Wr (ix2 r q))
            + broadcastInDim S50000x128 ![0, 1] bcast_S1x128_S50000x128_0_1 (broadcastInDim S1x128 ![1] bcast_S128_S1x128_1 b) (ix2 r q))
          (Ideal.ofBits .f32 0x00000000#32) from rfl).trans ?_
  rw [Cert.LibDot.dotGeneral_ix2 plainLayer, Cert.LibDot.dotGeneral_ix2 plainLayer, biasRow]

/-- The last product as the reference's host operations spell it, before the reshape. -/
def hostHeadCol (h : FVec Ideal S50000x128 .f32) (Wlin : FVec Ideal S128x1 .f32) (blin : FVec Ideal S1 .f32) : FVec Ideal S50000x1 .f32 :=
  addf (Host.dotGeneral dot_S50000x128_S128x1_S50000x1_1_0_0_1_n_n none h Wlin)
    (broadcastInDim S50000x1 ![0, 1] bcast_S1x1_S50000x1_0_1 (broadcastInDim S1x1 ![1] bcast_S1_S1x1_1 blin))

/-- The scalar spread over the rows reads the scalar. -/
theorem biasScalar (blin : FVec Ideal S1 .f32) (r : Fin 50000) (q : Fin 1) :
    broadcastInDim S50000x1 ![0, 1] bcast_S1x1_S50000x1_0_1 (broadcastInDim S1x1 ![1] bcast_S1_S1x1_1 blin) (ix2 r q)
      = blin (ix1 0) :=
  (broadcastInDim_apply _ _ _ (ix2 r q) (ix2 (0 : Fin 1) (0 : Fin 1)) (fun a => match a with | ⟨0, _⟩ => rfl | ⟨1, _⟩ => rfl)).trans
    (broadcastInDim_apply _ _ _ (ix2 (0 : Fin 1) (0 : Fin 1)) (ix1 (0 : Fin 1)) (fun a => match a with | ⟨0, _⟩ => rfl))

theorem hostHeadCol_eq (h : FVec Ideal S50000x128 .f32) (Wlin : FVec Ideal S128x1 .f32) (blin : FVec Ideal S1 .f32) :
    hostHeadCol h Wlin blin = headCol h Wlin blin := by
  funext i
  obtain ⟨r, q, rfl⟩ : ∃ (r : Fin 50000) (q : Fin 1), i = ix2 r q := ⟨i 0, i 1, eq_ix2 i⟩
  refine Eq.trans ?_ (headCol_apply h Wlin blin r q).symm
  refine (show hostHeadCol h Wlin blin (ix2 r q)
      = Host.dotGeneral (F := Ideal) dot_S50000x128_S128x1_S50000x1_1_0_0_1_n_n none h Wlin (ix2 r q)
          + broadcastInDim S50000x1 ![0, 1] bcast_S1x1_S50000x1_0_1 (broadcastInDim S1x1 ![1] bcast_S1_S1x1_1 blin) (ix2 r q)
      from rfl).trans ?_
  rw [Cert.LibDot.dotGeneral_ix2 plainHead, biasScalar]

variable (m : (ℓ : Loc nD τ sig) → Buf (Elt Ideal) ℓ) (c : Dev nD)

/-! ## The arguments, typed as the specification takes them -/

abbrev x : SNodes.Idx → EReal := m ((c.tc : Thread nD τ).loc main_arg0)
abbrev ei : IVec SEdges2 32 := m ((c.tc : Thread nD τ).loc main_arg1)
abbrev w1l : SW.Idx → EReal := m ((c.tc : Thread nD τ).loc main_arg2)
abbrev w1r : SW.Idx → EReal := m ((c.tc : Thread nD τ).loc main_arg3)
abbrev b1 : SB.Idx → EReal := m ((c.tc : Thread nD τ).loc main_arg4)
abbrev w2l : SW.Idx → EReal := m ((c.tc : Thread nD τ).loc main_arg5)
abbrev w2r : SW.Idx → EReal := m ((c.tc : Thread nD τ).loc main_arg6)
abbrev b2 : SB.Idx → EReal := m ((c.tc : Thread nD τ).loc main_arg7)
abbrev wlin : SWlin.Idx → EReal := m ((c.tc : Thread nD τ).loc main_arg8)
abbrev blin : SBlin.Idx → EReal := m ((c.tc : Thread nD τ).loc main_arg9)

/-- The first layer's output, in the reference's spelling. -/
def host1 : FVec Ideal S50000x128 .f32 := hostLayer (meanCol (x m c) (ei m c)) (x m c) (w1l m c) (w1r m c) (b1 m c)

/-- The second layer's output, in the reference's spelling. -/
def host2 : FVec Ideal S50000x128 .f32 := hostLayer (meanCol (host1 m c) (ei m c)) (host1 m c) (w2l m c) (w2r m c) (b2 m c)

theorem host1_eq : host1 m c = hidden1 meanCol (x m c) (ei m c) (w1l m c) (w1r m c) (b1 m c) := by
  unfold host1 hidden1
  rw [hostLayer_eq]

theorem host2_eq : host2 m c = hidden2 meanCol (x m c) (ei m c) (w1l m c) (w1r m c) (b1 m c) (w2l m c) (w2r m c) (b2 m c) := by
  unfold host2 hidden2
  rw [hostLayer_eq, host1_eq]

/-- The run's term for the second result is the second layer's output. -/
theorem res_hidden_spelt : Value.res_main_v53 m c = host2 m c := by
  unfold Value.res_main_v53
  rfl

/-- The run's term for the first result is the last product of the second layer's output, reshaped. -/
theorem res_output_spelt : Value.res_main_v58 m c
    = shapeCast S50000 (hostHeadCol (host2 m c) (wlin m c) (blin m c)) shapeCasts_S50000x1_S50000 := by
  unfold Value.res_main_v58
  rfl

/-- The second result. -/
theorem result_hidden : Value.res_main_v53 m c
    = hidden2 meanCol (x m c) (ei m c) (w1l m c) (w1r m c) (b1 m c) (w2l m c) (w2r m c) (b2 m c) :=
  (res_hidden_spelt m c).trans (host2_eq m c)

/-- The first result. -/
theorem result_output : Value.res_main_v58 m c
    = output meanCol (x m c) (ei m c) (w1l m c) (w1r m c) (b1 m c) (w2l m c) (w2r m c) (b2 m c) (wlin m c) (blin m c) := by
  rw [res_output_spelt, hostHeadCol_eq, host2_eq]
  rfl

end Cert.ReferenceIdeal.RefValue

end
-- ==== Proof.Degree.lean ====
/-
  The in-degree of a node counted two ways is one number.

  A float scatter-add over the extended reals gives entry `i` of its target the old entry plus the sum of the
  updates whose landing index is `i` (an update that lands outside the target is dropped). Edge `e` lands, in the
  rank-one count, at entry `dst e` of a vector over the nodes, and in the column count at entry `(dst e, 0)` of a
  one-column matrix: the two sets of contributing updates correspond under `e ↦ (e, 0)`, every update is the same
  number 1, so the two sums agree; the later `max (·, 1)` and the spreading over the 128 columns are then the same
  pointwise operations on equal numbers.
-/
import proofs.«164059_j49606872269111_1_alg».proof.Proof.Spec
import Idealize.ShloMosaic.Lib.Pipeline.Value

noncomputable section

namespace Cert.Sage

open Idealize.ShloMosaic Idealize.ShloMosaic.ValueIdx

/-- An update lands at `i` exactly when, on every axis, window start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    by_cases hall : ∀ a, 0 ≤ d.start j idx a + d.window j a ∧ d.start j idx a + d.window j a < s.size a
    · rw [dif_pos hall] at h
      intro a
      have h1 := congrArg Fin.val (congrFun (Option.some.inj h) a)
      have h2 := (hall a).1
      simp only at h1
      omega
    · rw [dif_neg hall] at h
      exact absurd h (by simp)
  · intro h
    have hall : ∀ a, 0 ≤ d.start j idx a + d.window j a ∧ d.start j idx a + d.window j a < s.size a := fun a => by
      rw [h a]; exact ⟨by omega, by exact_mod_cast (i a).isLt⟩
    rw [dif_pos hall]
    refine congrArg some (funext fun a => Fin.ext ?_)
    show (d.start j idx a + d.window j a).toNat = (i a).val
    rw [h a]; simp

/-- The node an edge's update is sent to, as a signed number read off the index column. -/
def target (idx : IVec SEdgeCol 32) (e : Fin 800000) : Int := (idx (ix2 e 0)).toInt

theorem start_vec (j : SEdge.Idx) (idx : IVec SEdgeCol 32) : scatterVec.start j idx 0 = target idx (j 0) := by
  unfold ScatterDims.start target
  rw [dif_pos (by decide)]
  refine congrArg (fun k => (idx k).toInt) (funext fun b => ?_)
  match b with
  | ⟨0, _⟩ => rfl
  | ⟨1, _⟩ => rfl

theorem window_vec (j : SEdge.Idx) : scatterVec.window j 0 = 0 := by
  unfold ScatterDims.window
  rw [dif_neg (by decide)]

theorem start_col0 (j : SEdgeCol.Idx) (idx : IVec SEdgeCol 32) : scatterCol.start j idx 0 = target idx (j 0) := by
  unfold ScatterDims.start target
  rw [dif_pos (by decide)]
  refine congrArg (fun k => (idx k).toInt) (funext fun b => ?_)
  match b with
  | ⟨0, _⟩ => rfl
  | ⟨1, _⟩ => rfl

theorem start_col1 (j : SEdgeCol.Idx) (idx : IVec SEdgeCol 32) : scatterCol.start j idx 1 = 0 := by
  unfold ScatterDims.start
  rw [dif_neg (by decide)]

theorem window_col0 (j : SEdgeCol.Idx) : scatterCol.window j 0 = 0 := by
  unfold ScatterDims.window
  rw [dif_neg (by decide)]

theorem window_col1 (j : SEdgeCol.Idx) : scatterCol.window j 1 = 0 := by
  unfold ScatterDims.window
  rw [dif_pos (by decide)]
  have h : (j 1).val < 1 := (j 1).isLt
  show (j 1).val = 0
  omega

/-- In the rank-one count edge `e` contributes to node `r` exactly when its target is `r`. -/
theorem lands_vec (j : SEdge.Idx) (idx : IVec SEdgeCol 32) (r : Fin 50000) :
    scatterVec.resultIdx? j idx = some (ix1 r) ↔ target idx (j 0) = (r.val : Int) := by
  rw [resultIdx?_eq_some_iff]
  constructor
  · intro h
    have := h 0
    rw [start_vec, window_vec] at this
    simpa using this
  · intro h a
    match a with
    | ⟨0, _⟩ =>
      show scatterVec.start j idx 0 + (scatterVec.window j 0 : Int) = (r.val : Int)
      rw [start_vec, window_vec, h]; simp

/-- In the column count the update at `(e, 0)` contributes to `(r, 0)` exactly when edge `e`'s target is `r`. -/
theorem lands_col (j : SEdgeCol.Idx) (idx : IVec SEdgeCol 32) (r : Fin 50000) :
    scatterCol.resultIdx? j idx = some (ix2 r 0) ↔ target idx (j 0) = (r.val : Int) := by
  rw [resultIdx?_eq_some_iff]
  constructor
  · intro h
    have := h 0
    rw [start_col0, window_col0] at this
    simpa using this
  · intro h a
    match a with
    | ⟨0, _⟩ =>
      show scatterCol.start j idx 0 + (scatterCol.window j 0 : Int) = (r.val : Int)
      rw [start_col0, window_col0, h]; simp
    | ⟨1, _⟩ =>
      show scatterCol.start j idx 1 + (scatterCol.window j 1 : Int) = ((0 : Fin 1).val : Int)
      rw [start_col1, window_col1]; simp

/-- Edges as entries of a vector and as entries of a one-column matrix. -/
def edgeEquiv : SEdge.Idx ≃ SEdgeCol.Idx where
  toFun j := ix2 (j 0) 0
  invFun j := ix1 (j 0)
  left_inv j := (eq_ix1 j).symm
  right_inv j := by
    funext a
    match a with
    | ⟨0, _⟩ => rfl
    | ⟨1, _⟩ => exact Fin.ext (by have h : (j 1).val < 1 := (j 1).isLt; show 0 = (j 1).val; omega)

/-- A float scatter-add over the extended reals, read at an entry. -/
theorem scatterAdd_apply {s si su : Shape} (d : ScatterDims s si su) {w : Nat} (x : FVec Ideal s .f32) (idx : IVec si w)
    (upd : FVec Ideal su .f32) (i : s.Idx) :
    Host.scatterAdd d x idx upd i = x i + ∑ j ∈ Finset.univ.filter (fun j => d.resultIdx? j idx = some i), upd j := rfl

/-- The degree column (at least 1 in every entry) is the same either way. -/
theorem degVec_eq_degCol (dst : IVec SEdge 32) : degVec dst = degCol dst := by
  funext i
  obtain ⟨r, u, rfl⟩ : ∃ (r : Fin 50000) (u : Fin 1), i = ix2 r u := ⟨i 0, i 1, eq_ix2 i⟩
  obtain rfl : u = 0 := Fin.ext (by have := u.isLt; omega)
  unfold degVec degCol
  rw [broadcastInDim_apply _ _ _ (ix2 r (0 : Fin 1)) (ix1 r) (fun a => match a with | ⟨0, _⟩ => rfl)]
  rw [maximumf_apply, maximumf_apply]
  refine congrArg₂ max ?_ rfl
  rw [scatterAdd_apply, scatterAdd_apply]
  refine congrArg₂ (· + ·) rfl ?_
  rw [Finset.sum_filter, Finset.sum_filter]
  refine Fintype.sum_equiv edgeEquiv _ _ (fun j => ?_)
  exact if_congr ((lands_vec j _ r).trans (lands_col (edgeEquiv j) _ r).symm) rfl rfl

/-- So the neighbour mean is the same array whichever way the degree is counted. -/
theorem meanVec_eq_meanCol (h : FVec Ideal SNodes .f32) (ei : IVec SEdges2 32) : meanVec h ei = meanCol h ei := by
  unfold meanVec meanCol
  rw [degVec_eq_degCol]

end Cert.Sage

end
-- ==== Proof.lean ====
/-
  The certificate's five claims.

  Both programs compute a two-layer graph network with mean aggregation over 50000 nodes, 128 features and
  800000 edges (Proof/Spec.lean says what that is, entry by entry, over the extended reals). The idealized kernel
  does each layer's dense part — two 128×128 products, a bias row, a rectifier — and the last 128×1 product in
  pipelined regions of 25 row blocks of 2000 rows, rounding the products' operands to bf16 (the identity on the
  extended reals); the reference does them as whole-array host products. A product into a zero accumulator and a
  host product are the same sum over the contracted index, a block of rows of one whole-array function is that
  function on those rows, and the 25 blocks tile the rows: so each region's output array is the same function of
  the region's inputs as the reference's layer (Proof/Region0–2.lean, Proof/RefValue.lean). The edge bookkeeping
  is the same host operations in both programs; only the in-degree is counted by two differently shaped scatters
  of ones, which agree (Proof/Degree.lean). No law used needs an entry to be finite: the two sides are the same
  sums, products and maxima in the same order, so the precondition is not opened.

  The frames of the two kernel programs are the generated ones; the reference's is its generated run with the
  results dropped; the ideal pass rewrote nothing, so `preserves` is `True`.
-/
import proofs.«164059_j49606872269111_1_alg».proof.Defs
import proofs.«164059_j49606872269111_1_alg».proof.Proof.Gen.Kernel
import proofs.«164059_j49606872269111_1_alg».proof.Proof.Gen.Kernel.Skeleton
import proofs.«164059_j49606872269111_1_alg».proof.Proof.Gen.Kernel.Launch
import proofs.«164059_j49606872269111_1_alg».proof.Proof.Gen.Kernel.Points
import proofs.«164059_j49606872269111_1_alg».proof.Proof.Gen.Kernel.Frame
import proofs.«164059_j49606872269111_1_alg».proof.Proof.Gen.KernelIdeal
import proofs.«164059_j49606872269111_1_alg».proof.Proof.Gen.KernelIdeal.Skeleton
import proofs.«164059_j49606872269111_1_alg».proof.Proof.Gen.KernelIdeal.Launch
import proofs.«164059_j49606872269111_1_alg».proof.Proof.Gen.KernelIdeal.Points
import proofs.«164059_j49606872269111_1_alg».proof.Proof.Gen.KernelIdeal.Frame
import proofs.«164059_j49606872269111_1_alg».proof.Proof.Gen.ReferenceIdeal
import proofs.«164059_j49606872269111_1_alg».proof.Proof.Gen.Pre_finite_inputs
import proofs.«164059_j49606872269111_1_alg».proof.Proof.Gen.ReferenceIdeal.Run
import proofs.«164059_j49606872269111_1_alg».proof.Proof.KernelRun
import proofs.«164059_j49606872269111_1_alg».proof.Proof.KernelValue
import proofs.«164059_j49606872269111_1_alg».proof.Proof.RefValue
import proofs.«164059_j49606872269111_1_alg».proof.Proof.Degree
import Idealize.ShloMosaic.Adequacy
import Idealize.ShloMosaic.Init

noncomputable section

namespace Cert.Proof

open Idealize.ShloMosaic Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The neighbour mean does not depend on how the degree is counted. -/
theorem mean_eq : (meanCol : FVec Ideal SNodes .f32 → IVec SEdges2 32 → FVec Ideal SNodes .f32) = meanVec :=
  funext fun h => funext fun ei => (meanVec_eq_meanCol h ei).symm

/-- From memories agreeing on the arguments both programs end with the network's two results: the kernel's at the
    network with the degree counted by the rank-one scatter, the reference's with it counted by the column scatter,
    which is the same network. -/
theorem algebraic : Cert.algebraic_KernelIdeal_ReferenceIdeal := by
  intro m ρ m' ρ' _ hagree
  refine ⟨fun c => output meanVec (Cert.KernelIdeal.KernelValue.x m c) (Cert.KernelIdeal.KernelValue.ei m c)
      (Cert.KernelIdeal.KernelValue.w1l m c) (Cert.KernelIdeal.KernelValue.w1r m c) (Cert.KernelIdeal.KernelValue.b1 m c)
      (Cert.KernelIdeal.KernelValue.w2l m c) (Cert.KernelIdeal.KernelValue.w2r m c) (Cert.KernelIdeal.KernelValue.b2 m c)
      (Cert.KernelIdeal.KernelValue.wlin m c) (Cert.KernelIdeal.KernelValue.blin m c),
    fun c => hidden2 meanVec (Cert.KernelIdeal.KernelValue.x m c) (Cert.KernelIdeal.KernelValue.ei m c)
      (Cert.KernelIdeal.KernelValue.w1l m c) (Cert.KernelIdeal.KernelValue.w1r m c) (Cert.KernelIdeal.KernelValue.b1 m c)
      (Cert.KernelIdeal.KernelValue.w2l m c) (Cert.KernelIdeal.KernelValue.w2r m c) (Cert.KernelIdeal.KernelValue.b2 m c), ?_, ?_⟩
  · exact (θ_run Cert.KernelIdeal.defs _ _).mono
      (fun _ h c => ⟨(h c).1.trans (Cert.KernelIdeal.KernelValue.result_output m ρ c),
        (h c).2.1.trans (Cert.KernelIdeal.KernelValue.result_hidden m ρ c), (h c).2.2⟩)
      (Cert.KernelIdeal.RunValue.run_results m ρ)
  · refine (θ_run Cert.ReferenceIdeal.defs _ _).mono (fun _ h c => ?_) (Cert.ReferenceIdeal.Value.run (F := Ideal) m' ρ')
    have e0 : Cert.ReferenceIdeal.RefValue.x m' c = Cert.KernelIdeal.KernelValue.x m c := (hagree c).1
    have e1 : Cert.ReferenceIdeal.RefValue.ei m' c = Cert.KernelIdeal.KernelValue.ei m c := (hagree c).2.1
    have e2 : Cert.ReferenceIdeal.RefValue.w1l m' c = Cert.KernelIdeal.KernelValue.w1l m c := (hagree c).2.2.1
    have e3 : Cert.ReferenceIdeal.RefValue.w1r m' c = Cert.KernelIdeal.KernelValue.w1r m c := (hagree c).2.2.2.1
    have e4 : Cert.ReferenceIdeal.RefValue.b1 m' c = Cert.KernelIdeal.KernelValue.b1 m c := (hagree c).2.2.2.2.1
    have e5 : Cert.ReferenceIdeal.RefValue.w2l m' c = Cert.KernelIdeal.KernelValue.w2l m c := (hagree c).2.2.2.2.2.1
    have e6 : Cert.ReferenceIdeal.RefValue.w2r m' c = Cert.KernelIdeal.KernelValue.w2r m c := (hagree c).2.2.2.2.2.2.1
    have e7 : Cert.ReferenceIdeal.RefValue.b2 m' c = Cert.KernelIdeal.KernelValue.b2 m c := (hagree c).2.2.2.2.2.2.2.1
    have e8 : Cert.ReferenceIdeal.RefValue.wlin m' c = Cert.KernelIdeal.KernelValue.wlin m c := (hagree c).2.2.2.2.2.2.2.2.1
    have e9 : Cert.ReferenceIdeal.RefValue.blin m' c = Cert.KernelIdeal.KernelValue.blin m c := (hagree c).2.2.2.2.2.2.2.2.2
    refine ⟨(h c).1.trans ((Cert.ReferenceIdeal.RefValue.result_output m' c).trans ?_),
      (h c).2.1.trans ((Cert.ReferenceIdeal.RefValue.result_hidden m' c).trans ?_), (h c).2.2⟩
    · rw [e0, e1, e2, e3, e4, e5, e6, e7, e8, e9, mean_eq]
    · rw [e0, e1, e2, e3, e4, e5, e6, e7, mean_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
